-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg8 : FVec F S128 .f32) (main_arg9 : FVec F S128x128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_v33

def fn {F : FTy → Type} [FloatOps F] (main_arg0 : FVec F S50000x128 .f32) (main_arg1 : FVec F S100000x128 .f32) (main_arg2 : IVec S600000 32) (main_arg3 : IVec S600000 32) (main_arg4 : IVec S600000 32) (main_arg5 : IVec S600000 32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_v13 main_v16
-- ==== Kernel.lean ====
abbrev S50000x128 : Shape := ⟨2, ![50000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S_, .f32⟩
  | .hbm, ⟨51, _⟩ => ⟨S600000, .f32⟩
  | .hbm, ⟨52, _⟩ => ⟨S_, .f32⟩
  | .hbm, ⟨53, _⟩ => ⟨S50000, .f32⟩
  | .hbm, ⟨54, _⟩ => ⟨S600000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S100000x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S50000 : Shape := ⟨1, ![50000]⟩
abbrev S50000x1 : Shape := ⟨2, ![50000, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S_, .f32⟩
  | .hbm, ⟨57, _⟩ => ⟨S600000, .f32⟩
  | .hbm, ⟨58, _⟩ => ⟨S_, .f32⟩
  | .hbm, ⟨59, _⟩ => ⟨S50000, .f32⟩
  | .hbm, ⟨60, _⟩ => ⟨S600000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S100000x128, .f32⟩
  | .hbm, ⟨79, _⟩ => ⟨S100000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Cell.lean ====
/-
  The node update of a mean-aggregating graph layer, as mathematics.

  A node `r` carries 128 features `x[r, ·]` of its own and the mean `hn[r, ·]` of its neighbours' features. The layer
  sends it to 128 new features: for each output feature `q`,

      out[r, q] = max( Σₖ x[r, k] · ws[k, q]  +  Σₖ hn[r, k] · wn[k, q]  +  b[q] ,  0 ),

  the two sums over the 128 input features `k`, `ws` and `wn` the weight matrices applied to the node's own features
  and to the neighbours' mean, `b` the bias, and the outer maximum the rectifier. Everything is read on the extended
  reals, where sums, products and `max` are the exact ones.

  `cell` is one entry from the row of `x`, the row of `hn`, the two columns of weights and the bias entry that it
  depends on; `update` is the whole array, entry by entry. An entry depends on ONE row of `x` and of `hn`: that is why
  the array can be computed a block of rows at a time, in any order, with the same result.
-/
import Idealize.ShloMosaic.PureOps.Ideal
import Idealize.ShloMosaic.Lib.ValueIdx

noncomputable section

namespace Cert.Sage

open Idealize.ShloMosaic Idealize.ShloMosaic.ValueIdx

/-- One entry of the update: the node's row `xr` against the column `wsc`, plus the neighbours' mean row `hr` against the
    column `wnc`, plus the bias entry, rectified at zero. -/
def cell (xr hr wsc wnc : Fin 128 → EReal) (b : EReal) : EReal :=
  max ((∑ k : Fin 128, xr k * wsc k) + (∑ k : Fin 128, hr k * wnc k) + b) 0

/-- The update of `N` nodes: entry `(r, q)` is `cell` of row `r` of `x` and of `hn`, column `q` of `ws` and of `wn`, and
    entry `q` of `b`. -/
def update {N : Nat} (x hn : (⟨2, ![N, 128]⟩ : Shape).Idx → EReal) (ws wn : (⟨2, ![128, 128]⟩ : Shape).Idx → EReal)
    (b : (⟨1, ![128]⟩ : Shape).Idx → EReal) : (⟨2, ![N, 128]⟩ : Shape).Idx → EReal :=
  fun i => cell (fun k => x (ix2 (n0 := N) (n1 := 128) (i 0) k)) (fun k => hn (ix2 (n0 := N) (n1 := 128) (i 0) k))
    (fun k => ws (ix2 (n0 := 128) (n1 := 128) k (i 1))) (fun k => wn (ix2 (n0 := 128) (n1 := 128) k (i 1)))
    (b (ix1 (n := 128) (i 1)))

/-- The update at a row and a column given as coordinates. -/
theorem update_ix2 {N : Nat} (x hn : (⟨2, ![N, 128]⟩ : Shape).Idx → EReal) (ws wn : (⟨2, ![128, 128]⟩ : Shape).Idx → EReal)
    (b : (⟨1, ![128]⟩ : Shape).Idx → EReal) (r : Fin N) (q : Fin 128) :
    update x hn ws wn b (ix2 r q)
      = cell (fun k => x (ix2 r k)) (fun k => hn (ix2 r k)) (fun k => ws (ix2 k q)) (fun k => wn (ix2 k q)) (b (ix1 q)) := rfl

end Cert.Sage

end
-- ==== Proof.Block.lean ====
/-
  What the kernel body stores, entry by entry.

  At one grid point the body holds a block of 5000 rows of the nodes' own features (`x0`), the same 5000 rows of the
  neighbours' mean (`x1`), the two whole weight matrices (`x2`, `x3`) and the whole bias (`x4`), and stores
  `max(x0 · x2 + x1 · x3 + b, 0)`, the two products taken by the matrix unit into a zero accumulator after the operands
  are narrowed to sixteen bits. On the extended reals the narrowing changes nothing and a product into a zero
  accumulator is the plain sum over the contracted index, so the stored entry at row `p`, column `q` of the block is
  `Cert.Sage.cell` of row `p` of `x0` and of `x1`, column `q` of `x2` and of `x3`, and entry `q` of `x4`.

  Both regions of the program run the same body (one over the 100000 flow nodes, one over the 50000 endpoint
  nodes), so the second region's stored value is the first's.
-/
import proofs.«151325_j85152021611239_1_alg».proof.Proof.Gen.KernelIdeal.Skeleton
import proofs.«151325_j85152021611239_1_alg».proof.Proof.Cell
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Sage

/-! ## The matrix product of a block of rows with a weight matrix, at a row and a column -/

/-- The left operand's index of the product at output entry `j` and contracted index `κ` has `j`'s row. -/
theorem lhs_row (j : S5000x128.Idx) (κ : dot_S5000x128_S128x128_S5000x128_1_0_0_1_n_n.contr.Idx) : (dot_S5000x128_S128x128_S5000x128_1_0_0_1_n_n.lhsIdx j κ 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's index has `j`'s column. -/
theorem rhs_col (j : S5000x128.Idx) (κ : dot_S5000x128_S128x128_S5000x128_1_0_0_1_n_n.contr.Idx) : (dot_S5000x128_S128x128_S5000x128_1_0_0_1_n_n.rhsIdx j κ 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into the zero accumulator, at row `p` and column `q`: the sum over the 128 contracted
    features `k` of the left operand at `(p, k)` times the right at `(k, q)`. -/
theorem matmul_at {φ₁ φ₂ : FTy} (a : FVec Ideal S5000x128 φ₁) (w : FVec Ideal S128x128 φ₂) (p : Fin 5000) (q : Fin 128) :
    matmul (F := Ideal) dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (dot_S5000x128_S128x128_S5000x128_1_0_0_1_n_n.rhsIdx_val_of_single rfl (ix2 p q) _).trans hk
    | ⟨1, _⟩ => exact rhs_col _ _)
  rw [el, er]

/-! ## The bias, laid along the rows -/

/-- The bias vector recast as one row and repeated down the 5000 rows, at `(p, q)`, is its entry `q`. -/
theorem bias_at (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_apply _ broadcasts_S1x128_S5000x128 (ix2 p q) (ix2 (0 : Fin 1) q) (fun d => match d with
    | ⟨0, _⟩ => by show (0 : Nat) = if (1 : Nat) = 1 then 0 else p.val; rw [if_pos rfl]
    | ⟨1, _⟩ => by show q.val = if (128 : Nat) = 1 then 0 else q.val; rw [if_neg (by decide)])]
  refine (shapeCast_addUnit_apply ![128] b shapeCasts_S128_S1x128 (ix2 (0 : Fin 1) q)).trans ?_
  exact congrArg b (funext fun d => match d with | ⟨0, _⟩ => rfl)

/-! ## The stored value -/

/-- The body's stored value at row `p`, column `q` of the block. -/
theorem stored_at (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = cell (fun k => x0 (ix2 p k)) (fun k => x1 (ix2 p k)) (fun k => x2 (ix2 k q)) (fun k => x3 (ix2 k q)) (x4 (ix1 q)) := by
  unfold k0_pay1
  rw [maximumf_apply, addf_apply, addf_apply, broadcast_apply, matmul_at, matmul_at, bias_at, shapeCast_self]
  show max _ (Ideal.ofBits .f32 0x00000000#32) = _
  rw [Ideal.ofBits_zero_f32]
  rfl

/-- The second region's body stores what the first's does. -/
theorem stored_second : @k1_pay1 = @k0_pay1 := rfl

end Cert.KernelIdeal.Block

end
-- ==== Proof.Flow.lean ====
/-
  The first region: the update of the 100000 flow nodes, from the arrays the region is entered with.

  The region runs the body at 20 grid points. Point `t` is handed rows `5000·t … 5000·t + 4999` of the nodes' own
  features and of the neighbours' mean, the whole of the two weight matrices and of the bias, and writes its stored
  block back to the same rows of the output. Whatever the arrays hold when the region is entered (`V`), the block point
  `t` writes back is therefore rows `5000·t …` of `Cert.Sage.update` of those arrays: an entry of `update` depends on one
  row of the two feature arrays only, and that row is in the point's block. The 20 blocks of 5000 rows tile the 100000 rows,
  so after the region the output array IS `update` of the five input arrays.
-/
import proofs.«151325_j85152021611239_1_alg».proof.Proof.Gen.KernelIdeal.Frame
import proofs.«151325_j85152021611239_1_alg».proof.Proof.Block
import Idealize.ShloMosaic.Lib.Pipeline.Value
import Idealize.ShloMosaic.Lib.ValueIdx

set_option maxRecDepth 16384

noncomputable section

namespace Cert.KernelIdeal.Flow

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The region's output as one function of the arrays it is entered with. -/
abbrev result (c : Dev nD) : S100000x128.Idx → EReal :=
  update (N := 100000) (V c main_arg1) (V c main_v18) (V c main_arg6) (V c main_arg7) (V c main_arg8)

/-- The printed index maps over the grid: the two feature windows and the output window sit at block row `t`, block
    column `0`; the weights and the bias at block `0`. -/
theorem maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero off2]
  simp only [View.ld_unit_zero (S := S5000x128) off2, View.ld_unit_zero (S := S128x128) off2, View.ld_unit_zero (S := S128) off1]
  obtain ⟨e00, e01, e10, e11, e20, e21, e30, e31, e40, e50, e51⟩ := maps t
  have ht : t.val < 20 := by have h := t.isLt; have hN : cfg0.N = 20 := N_0; omega
  funext j
  obtain ⟨p, q, rfl⟩ : ∃ (p : Fin 5000) (q : Fin 128), j = ix2 p q := ⟨j 0, j 1, eq_ix2 j⟩
  have hp : p.val < 5000 := p.isLt
  show k0_pay1 (iblk0 V c 0 t) (iblk0 V c 1 t) (iblk0 V c 2 t) (iblk0 V c 3 t) (iblk0 V c 4 t) (ix2 p q)
      = result V c (((cfg0.win 5).blk t).view.emb (ix2 p q))
  refine (Block.stored_at (iblk0 V c 0 t) (iblk0 V c 1 t) (iblk0 V c 2 t) (iblk0 V c 3 t) (iblk0 V c 4 t) p q).trans ?_
  -- the row of the array that row `p` of point `t`'s block is
  have hr : t.val * 5000 + p.val < 100000 := by omega
  have hout : ((cfg0.win 5).blk t).view.emb (ix2 p q) = ix2 (n0 := 100000) (n1 := 128) ⟨t.val * 5000 + p.val, hr⟩ q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega
  rw [hout]
  refine Eq.trans ?_ (update_ix2 (N := 100000) (V c main_arg1) (V c main_v18) (V c main_arg6) (V c main_arg7) (V c main_arg8) ⟨t.val * 5000 + p.val, hr⟩ q).symm
  have h0 : ∀ k : Fin 128, iblk0 V c 0 t (ix2 p k) = V c main_arg1 (ix2 (n0 := 100000) (n1 := 128) ⟨t.val * 5000 + p.val, hr⟩ k) := fun k => by
    show V c main_arg1 (((cfg0.win 0).blk t).view.emb (ix2 p k)) = _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  have h1 : ∀ k : Fin 128, iblk0 V c 1 t (ix2 p k) = V c main_v18 (ix2 (n0 := 100000) (n1 := 128) ⟨t.val * 5000 + p.val, hr⟩ k) := fun k => by
    show V c main_v18 (((cfg0.win 1).blk t).view.emb (ix2 p k)) = _
    refine congrArg _ (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  have h2 : ∀ k : Fin 128, iblk0 V c 2 t (ix2 k q) = V c main_arg6 (ix2 k q) := fun k => by
    show V c main_arg6 (((cfg0.win 2).blk t).view.emb (ix2 k q)) = _
    refine congrArg _ (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  have h3 : ∀ k : Fin 128, iblk0 V c 3 t (ix2 k q) = V c main_arg7 (ix2 k q) := fun k => by
    show V c main_arg7 (((cfg0.win 3).blk t).view.emb (ix2 k q)) = _
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  have h4 : iblk0 V c 4 t (ix1 q) = V c main_arg8 (ix1 q) := by
    show V c main_arg8 (((cfg0.win 4).blk t).view.emb (ix1 q)) = _
    refine congrArg _ (funext fun a => Fin.ext ?_)
    match a with
    | ⟨0, _⟩ => show win0_4.index t (0 : Fin 1) * 128 + 1 * q.val = q.val; rw [e40]; omega
  rw [funext h0, funext h1, funext h2, funext h3, h4]

/-- THE OUTPUT ARRAY after the region is `result`: the write-backs are its blocks, and row `r` is in point `r / 5000`'s. -/
theorem final (c : Dev nD) : (dat0 V c).arrAt 5 cfg0.N = result V c :=
  (dat0 V c).arrAt_eq_of_cover 5 (result V c) (fun t _ => flushed_eq V c t) fun i => by
    have hi0 : (i 0).val < 100000 := (i 0).isLt
    have hi1 : (i 1).val < 128 := (i 1).isLt
    have hN : cfg0.N = 20 := N_0
    have hlt : (i 0).val / 5000 < cfg0.N := by rw [hN]; omega
    obtain ⟨-, -, -, -, -, -, -, -, -, e50, e51⟩ := maps ⟨(i 0).val / 5000, hlt⟩
    refine ⟨⟨(i 0).val / 5000, hlt⟩, flush0_5 _, ?_⟩
    show i ∈ ((View.whole main_v38).slice (win0_5.rect ⟨(i 0).val / 5000, hlt⟩)).set
    rw [View.set_slice_whole, Rect.mem_set_unit]
    intro a
    match a with
    | ⟨0, _⟩ =>
      show win0_5.index ⟨(i 0).val / 5000, hlt⟩ (0 : Fin 2) * 5000 ≤ (i 0).val ∧ (i 0).val < win0_5.index ⟨(i 0).val / 5000, hlt⟩ (0 : Fin 2) * 5000 + 5000
      rw [e50]; show (i 0).val / 5000 * 5000 ≤ (i 0).val ∧ (i 0).val < (i 0).val / 5000 * 5000 + 5000; omega
    | ⟨1, _⟩ =>
      show win0_5.index ⟨(i 0).val / 5000, hlt⟩ (1 : Fin 2) * 128 ≤ (i 1).val ∧ (i 1).val < win0_5.index ⟨(i 0).val / 5000, hlt⟩ (1 : Fin 2) * 128 + 128
      rw [e51]; omega

end Cert.KernelIdeal.Flow

end
-- ==== Proof.Endpoint.lean ====
/-
  The second region: the update of the 50000 endpoint nodes, from the arrays the region is entered with.

  The region runs the body at 10 grid points. Point `t` is handed rows `5000·t … 5000·t + 4999` of the nodes' own
  features and of the neighbours' mean, the whole of the two weight matrices and of the bias, and writes its stored
  block back to the same rows of the output. Whatever the arrays hold when the region is entered (`V`), the block point
  `t` writes back is therefore rows `5000·t …` of `Cert.Sage.update` of those arrays: an entry of `update` depends on one
  row of the two feature arrays only, and that row is in the point's block. The 10 blocks of 5000 rows tile the 50000 rows,
  so after the region the output array IS `update` of the five input arrays.
-/
import proofs.«151325_j85152021611239_1_alg».proof.Proof.Gen.KernelIdeal.Frame
import proofs.«151325_j85152021611239_1_alg».proof.Proof.Block
import Idealize.ShloMosaic.Lib.Pipeline.Value
import Idealize.ShloMosaic.Lib.ValueIdx

set_option maxRecDepth 16384

noncomputable section

namespace Cert.KernelIdeal.Endpoint

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The region's output as one function of the arrays it is entered with. -/
abbrev result (c : Dev nD) : S50000x128.Idx → EReal :=
  update (N := 50000) (V c main_arg0) (V c main_v37) (V c main_arg9) (V c main_arg10) (V c main_arg11)

/-- The printed index maps over the grid: the two feature windows and the output window sit at block row `t`, block
    column `0`; the weights and the bias at block `0`. -/
theorem maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT `t` WRITES BACK is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero off2]
  simp only [View.ld_unit_zero (S := S5000x128) off2, View.ld_unit_zero (S := S128x128) off2, View.ld_unit_zero (S := S128) off1]
  obtain ⟨e00, e01, e10, e11, e20, e21, e30, e31, e40, e50, e51⟩ := maps t
  have ht : t.val < 10 := by have h := t.isLt; have hN : cfg1.N = 10 := N_1; omega
  funext j
  obtain ⟨p, q, rfl⟩ : ∃ (p : Fin 5000) (q : Fin 128), j = ix2 p q := ⟨j 0, j 1, eq_ix2 j⟩
  have hp : p.val < 5000 := p.isLt
  show k1_pay1 (iblk1 V c 0 t) (iblk1 V c 1 t) (iblk1 V c 2 t) (iblk1 V c 3 t) (iblk1 V c 4 t) (ix2 p q)
      = result V c (((cfg1.win 5).blk t).view.emb (ix2 p q))
  rw [Block.stored_second]
  refine (Block.stored_at (iblk1 V c 0 t) (iblk1 V c 1 t) (iblk1 V c 2 t) (iblk1 V c 3 t) (iblk1 V c 4 t) p q).trans ?_
  -- the row of the array that row `p` of point `t`'s block is
  have hr : t.val * 5000 + p.val < 50000 := by omega
  have hout : ((cfg1.win 5).blk t).view.emb (ix2 p q) = ix2 (n0 := 50000) (n1 := 128) ⟨t.val * 5000 + p.val, hr⟩ q := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 128 + 1 * q.val = q.val; rw [e51]; omega
  rw [hout]
  refine Eq.trans ?_ (update_ix2 (N := 50000) (V c main_arg0) (V c main_v37) (V c main_arg9) (V c main_arg10) (V c main_arg11) ⟨t.val * 5000 + p.val, hr⟩ q).symm
  have h0 : ∀ k : Fin 128, iblk1 V c 0 t (ix2 p k) = V c main_arg0 (ix2 (n0 := 50000) (n1 := 128) ⟨t.val * 5000 + p.val, hr⟩ k) := fun k => by
    show V c main_arg0 (((cfg1.win 0).blk t).view.emb (ix2 p k)) = _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  have h1 : ∀ k : Fin 128, iblk1 V c 1 t (ix2 p k) = V c main_v37 (ix2 (n0 := 50000) (n1 := 128) ⟨t.val * 5000 + p.val, hr⟩ k) := fun k => by
    show V c main_v37 (((cfg1.win 1).blk t).view.emb (ix2 p k)) = _
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  have h2 : ∀ k : Fin 128, iblk1 V c 2 t (ix2 k q) = V c main_arg9 (ix2 k q) := fun k => by
    show V c main_arg9 (((cfg1.win 2).blk t).view.emb (ix2 k q)) = _
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 128 + 1 * q.val = q.val; rw [e21]; omega
  have h3 : ∀ k : Fin 128, iblk1 V c 3 t (ix2 k q) = V c main_arg10 (ix2 k q) := fun k => by
    show V c main_arg10 (((cfg1.win 3).blk t).view.emb (ix2 k q)) = _
    refine congrArg _ (funext fun a => Fin.ext ?_)
    match a with
    | ⟨0, _⟩ => show win1_3.index t (0 : Fin 2) * 128 + 1 * k.val = k.val; rw [e30]; omega
    | ⟨1, _⟩ => show win1_3.index t (1 : Fin 2) * 128 + 1 * q.val = q.val; rw [e31]; omega
  have h4 : iblk1 V c 4 t (ix1 q) = V c main_arg11 (ix1 q) := by
    show V c main_arg11 (((cfg1.win 4).blk t).view.emb (ix1 q)) = _
    refine congrArg _ (funext fun a => Fin.ext ?_)
    match a with
    | ⟨0, _⟩ => show win1_4.index t (0 : Fin 1) * 128 + 1 * q.val = q.val; rw [e40]; omega
  rw [funext h0, funext h1, funext h2, funext h3, h4]

/-- THE OUTPUT ARRAY after the region is `result`: the write-backs are its blocks, and row `r` is in point `r / 5000`'s. -/
theorem final (c : Dev nD) : (dat1 V c).arrAt 5 cfg1.N = result V c :=
  (dat1 V c).arrAt_eq_of_cover 5 (result V c) (fun t _ => flushed_eq V c t) fun i => by
    have hi0 : (i 0).val < 50000 := (i 0).isLt
    have hi1 : (i 1).val < 128 := (i 1).isLt
    have hN : cfg1.N = 10 := N_1
    have hlt : (i 0).val / 5000 < cfg1.N := by rw [hN]; omega
    obtain ⟨-, -, -, -, -, -, -, -, -, e50, e51⟩ := maps ⟨(i 0).val / 5000, hlt⟩
    refine ⟨⟨(i 0).val / 5000, hlt⟩, flush1_5 _, ?_⟩
    show i ∈ ((View.whole main_v39).slice (win1_5.rect ⟨(i 0).val / 5000, hlt⟩)).set
    rw [View.set_slice_whole, Rect.mem_set_unit]
    intro a
    match a with
    | ⟨0, _⟩ =>
      show win1_5.index ⟨(i 0).val / 5000, hlt⟩ (0 : Fin 2) * 5000 ≤ (i 0).val ∧ (i 0).val < win1_5.index ⟨(i 0).val / 5000, hlt⟩ (0 : Fin 2) * 5000 + 5000
      rw [e50]; show (i 0).val / 5000 * 5000 ≤ (i 0).val ∧ (i 0).val < (i 0).val / 5000 * 5000 + 5000; omega
    | ⟨1, _⟩ =>
      show win1_5.index ⟨(i 0).val / 5000, hlt⟩ (1 : Fin 2) * 128 ≤ (i 1).val ∧ (i 1).val < win1_5.index ⟨(i 0).val / 5000, hlt⟩ (1 : Fin 2) * 128 + 128
      rw [e51]; omega

end Cert.KernelIdeal.Endpoint

end
-- ==== Proof.KernelRun.lean ====
/-
  The idealized kernel's run, with every buffer named at the end.

  The program is a stretch of host operations (the two neighbour means), then the region over the flow nodes, then the
  region over the endpoint nodes. Its memory is followed through the three segments: `W1` after the host stretch, `W2`
  after the first region (its output array at what the write-backs leave, everything else as before), `W3` after the
  second. Every weakly fair execution terminates, nothing faulting, and in every final state each unscoped buffer
  holds what `W3` says: the same launch over the segments that proves the arguments unchanged, with the final reading
  kept for every buffer instead of the twelve arguments only.
-/
import proofs.«151325_j85152021611239_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the contents the fold through the three segments ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- A result or argument buffer of the program at the end of any execution: what the fold ends with there. -/
theorem read_at {r : PUnit × MemSt nD τ sig (Elt F)}
    (h : ∀ c : Dev nD, ∀ b ∈ Pipeline.ucRefs τ sig, r.2.mem (((c : Thread nD τ)).1, b) = W3 m ρ c b)
    (c : Dev nD) (b : Ref sig .tc) (hb : ¬ (Proc.devRef .tc b : DevRef τ sig).isScoped) :
    r.2.mem ((c.tc : Thread nD τ).loc b) = W3 m ρ c (Proc.devRef .tc b) :=
  h c _ (mem_uc b hb)

end Cert.KernelIdeal.Run

end
-- ==== Proof.KernelValue.lean ====
/-
  The idealized kernel's two results as functions of its arguments.

  The first region is entered after the host stretch: its feature array and weights are arguments no host operation
  writes, so they hold their launch contents, and its neighbours' mean is what the host stretch computed — the gather
  of the endpoint rows along the edges, summed into the flow nodes, divided by each node's clamped degree. That term is
  the reference's own stage for the same quantity at the same arguments (both programs spell the mean with the same
  operations), so it is named by the reference's stage function rather than written out again. The second region is
  entered after the first, which wrote only its own output array: every array the second region reads is still what the
  host stretch left.

  So the flow result is `Cert.Sage.update` of the flow features, the flow nodes' neighbour mean, and the flow weights and
  bias; the endpoint result the same of the endpoint arrays; and the run of the program, read at the two result buffers
  and the twelve arguments, says so.
-/
import proofs.«151325_j85152021611239_1_alg».proof.Proof.Gen.KernelIdeal.Frame
import proofs.«151325_j85152021611239_1_alg».proof.Proof.Gen.ReferenceIdeal.Read
import proofs.«151325_j85152021611239_1_alg».proof.Proof.Flow
import proofs.«151325_j85152021611239_1_alg».proof.Proof.Endpoint
import proofs.«151325_j85152021611239_1_alg».proof.Proof.KernelRun
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.StableHlo Cert.Sage
open Idealize.ShloMosaic.Pipeline (Dat)

variable (m : (ℓ : Loc nD τ sig) → Buf (Elt Ideal) ℓ) (ρ : Dev nD → PrngReg)

/-! ## What the first region is entered with -/

theorem flow_x (c : Dev nD) : V1 m ρ c main_arg1 = m ((c : Thread nD τ).loc main_arg1) := by
  show StableHlo.after hostOps0 (W0 m ρ c) (Proc.devRef .tc main_arg1) = _
  dsimp only [hostOps0]
  after_results
theorem flow_ws (c : Dev nD) : V1 m ρ c main_arg6 = m ((c : Thread nD τ).loc main_arg6) := by
  show StableHlo.after hostOps0 (W0 m ρ c) (Proc.devRef .tc main_arg6) = _
  dsimp only [hostOps0]
  after_results
theorem flow_wn (c : Dev nD) : V1 m ρ c main_arg7 = m ((c : Thread nD τ).loc main_arg7) := by
  show StableHlo.after hostOps0 (W0 m ρ c) (Proc.devRef .tc main_arg7) = _
  dsimp only [hostOps0]
  after_results
theorem flow_b (c : Dev nD) : V1 m ρ c main_arg8 = m ((c : Thread nD τ).loc main_arg8) := by
  show StableHlo.after hostOps0 (W0 m ρ c) (Proc.devRef .tc main_arg8) = _
  dsimp only [hostOps0]
  after_results

set_option maxHeartbeats 8000000 in
/-- The flow nodes' neighbour mean as the host stretch leaves it. -/
theorem flow_mean (c : Dev nD) : V1 m ρ c main_v18 = (Cert.ReferenceIdeal.Read.val_main_v18 (F := Ideal) (m ((c : Thread nD τ).loc main_arg0)) (m ((c : Thread nD τ).loc main_arg2)) (m ((c : Thread nD τ).loc main_arg3))) := by
  show StableHlo.after hostOps0 (W0 m ρ c) (Proc.devRef .tc main_v18) = _
  dsimp only [hostOps0]
  after_results_simp <;> rfl

/-! ## What the second region is entered with: the first wrote none of it -/

theorem ep_x (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = _
  dsimp only [hostOps0]
  after_results
theorem ep_ws (c : Dev nD) : V2 m ρ c main_arg9 = m ((c : Thread nD τ).loc main_arg9) := by
  refine (W2_of_ne m ρ c main_arg9 (by decide)).trans ?_
  show StableHlo.after hostOps0 (W0 m ρ c) (Proc.devRef .tc main_arg9) = _
  dsimp only [hostOps0]
  after_results
theorem ep_wn (c : Dev nD) : V2 m ρ c main_arg10 = m ((c : Thread nD τ).loc main_arg10) := by
  refine (W2_of_ne m ρ c main_arg10 (by decide)).trans ?_
  show StableHlo.after hostOps0 (W0 m ρ c) (Proc.devRef .tc main_arg10) = _
  dsimp only [hostOps0]
  after_results
theorem ep_b (c : Dev nD) : V2 m ρ c main_arg11 = m ((c : Thread nD τ).loc main_arg11) := by
  refine (W2_of_ne m ρ c main_arg11 (by decide)).trans ?_
  show StableHlo.after hostOps0 (W0 m ρ c) (Proc.devRef .tc main_arg11) = _
  dsimp only [hostOps0]
  after_results

set_option maxHeartbeats 8000000 in
/-- The endpoint nodes' neighbour mean as the host stretch leaves it. -/
theorem ep_mean (c : Dev nD) : V2 m ρ c main_v37 = (Cert.ReferenceIdeal.Read.val_main_v43 (F := Ideal) (m ((c : Thread nD τ).loc main_arg1)) (m ((c : Thread nD τ).loc main_arg4)) (m ((c : Thread nD τ).loc main_arg5))) := by
  refine (W2_of_ne m ρ c main_v37 (by decide)).trans ?_
  show StableHlo.after hostOps0 (W0 m ρ c) (Proc.devRef .tc main_v37) = _
  dsimp only [hostOps0]
  after_results_simp <;> rfl

/-! ## The two results at the end of the fold -/

/-- The flow result: the second region does not write it, and the first leaves it at the update. -/
theorem flow_result (c : Dev nD) :
    W3 m ρ c (Proc.devRef .tc main_v38) = update (N := 100000) (m ((c : Thread nD τ).loc main_arg1)) (Cert.ReferenceIdeal.Read.val_main_v18 (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8)) := by
  refine (W3_of_ne m ρ c main_v38 (by decide)).trans ?_
  refine (W2_arr m ρ c 5).trans ?_
  refine (Flow.final (V1 m ρ) c).trans ?_
  unfold Flow.result
  rw [flow_x, flow_mean, flow_ws, flow_wn, flow_b]

/-- The endpoint result: the second region leaves it at the update. -/
theorem ep_result (c : Dev nD) :
    W3 m ρ c (Proc.devRef .tc main_v39) = update (N := 50000) (m ((c : Thread nD τ).loc main_arg0)) (Cert.ReferenceIdeal.Read.val_main_v43 (F := Ideal) (m ((c : Thread nD τ).loc main_arg1)) (m ((c : Thread nD τ).loc main_arg4)) (m ((c : Thread nD τ).loc main_arg5))) (m ((c : Thread nD τ).loc main_arg9)) (m ((c : Thread nD τ).loc main_arg10)) (m ((c : Thread nD τ).loc main_arg11)) := by
  refine (W3_arr m ρ c 5).trans ?_
  refine (Endpoint.final (V2 m ρ) c).trans ?_
  unfold Endpoint.result
  rw [ep_x, ep_mean, ep_ws, ep_wn, ep_b]

/-! ## The run -/

/-- Every weakly fair execution terminates with the two results at the updates of the arguments, the arguments
    unchanged. -/
theorem run : θ_run defs (onTc (τ := τ) (main (F := Ideal))) ⟨m, fun _ => 0, ρ⟩ (fun r => ∀ c : Dev nD,
      r.2.mem ((c.tc : Thread nD τ).loc main_v39) = update (N := 50000) (m ((c : Thread nD τ).loc main_arg0)) (Cert.ReferenceIdeal.Read.val_main_v43 (F := Ideal) (m ((c : Thread nD τ).loc main_arg1)) (m ((c : Thread nD τ).loc main_arg4)) (m ((c : Thread nD τ).loc main_arg5))) (m ((c : Thread nD τ).loc main_arg9)) (m ((c : Thread nD τ).loc main_arg10)) (m ((c : Thread nD τ).loc main_arg11))
      ∧ r.2.mem ((c.tc : Thread nD τ).loc main_v38) = update (N := 100000) (m ((c : Thread nD τ).loc main_arg1)) (Cert.ReferenceIdeal.Read.val_main_v18 (F := Ideal) (m ((c : Thread nD τ).loc main_arg0)) (m ((c : Thread nD τ).loc main_arg2)) (m ((c : Thread nD τ).loc main_arg3))) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(Run.read_at m ρ h c main_v39 (by decide)).trans (ep_result m ρ c),
     (Run.read_at m ρ h c main_v38 (by decide)).trans (flow_result m ρ c),
     (Run.read_at m ρ h c main_arg0 (by decide)).trans (W3_main_arg0 m ρ c),
     (Run.read_at m ρ h c main_arg1 (by decide)).trans (W3_main_arg1 m ρ c),
     (Run.read_at m ρ h c main_arg2 (by decide)).trans (W3_main_arg2 m ρ c),
     (Run.read_at m ρ h c main_arg3 (by decide)).trans (W3_main_arg3 m ρ c),
     (Run.read_at m ρ h c main_arg4 (by decide)).trans (W3_main_arg4 m ρ c),
     (Run.read_at m ρ h c main_arg5 (by decide)).trans (W3_main_arg5 m ρ c),
     (Run.read_at m ρ h c main_arg6 (by decide)).trans (W3_main_arg6 m ρ c),
     (Run.read_at m ρ h c main_arg7 (by decide)).trans (W3_main_arg7 m ρ c),
     (Run.read_at m ρ h c main_arg8 (by decide)).trans (W3_main_arg8 m ρ c),
     (Run.read_at m ρ h c main_arg9 (by decide)).trans (W3_main_arg9 m ρ c),
     (Run.read_at m ρ h c main_arg10 (by decide)).trans (W3_main_arg10 m ρ c),
     (Run.read_at m ρ h c main_arg11 (by decide)).trans (W3_main_arg11 m ρ c)⟩)
    (Run.run_all m ρ)

end Cert.KernelIdeal.Value

end
-- ==== Proof.RefValue.lean ====
/-
  The reference's two results as functions of its arguments.

  The reference computes, for the flow nodes and again for the endpoint nodes, the two whole matrix products, their
  sum, the bias repeated down the rows, and the rectifier, each as one array operation. Read at a row `r` and a column
  `q`, a whole matrix product is the sum over the 128 contracted features of the left entry in row `r` times the right
  entry in column `q`, the repeated bias is its entry `q`, and the rectifier is the maximum with zero: the entry is
  `Cert.Sage.cell` of row `r`, column `q`, so each result array is `Cert.Sage.update` of its five arrays — the same
  function the kernel's regions leave, block by block.
-/
import proofs.«151325_j85152021611239_1_alg».proof.Proof.Gen.ReferenceIdeal.Read
import proofs.«151325_j85152021611239_1_alg».proof.Proof.Cell
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Sage

/-- The flow result stage is the update of the flow arrays. -/
theorem flow (x0 : (⟨S50000x128, .f32⟩ : BufTy).Contents (Elt Ideal)) (x1 : (⟨S100000x128, .f32⟩ : BufTy).Contents (Elt Ideal)) (x2 x3 : (⟨S600000, .i32⟩ : BufTy).Contents (Elt Ideal)) (x6 x7 : (⟨S128x128, .f32⟩ : BufTy).Contents (Elt Ideal)) (x8 : (⟨S128, .f32⟩ : BufTy).Contents (Elt Ideal)) :
    val_main_v51 (F := Ideal) x0 x1 x2 x3 x6 x7 x8 = update (N := 100000) x1 (val_main_v18 (F := Ideal) x0 x2 x3) x6 x7 x8 := by
  funext i
  obtain ⟨r, q, rfl⟩ : ∃ (r : Fin 100000) (q : Fin 128), i = ix2 r q := ⟨i 0, i 1, eq_ix2 i⟩
  rw [update_ix2, val_main_v51_apply, val_main_v24_apply, val_main_v21_apply, val_main_v19_apply, val_main_v20_apply, val_main_v23_apply, val_main_v22_apply, val_main_call1_v0_apply, val_main_call1_cst_apply]
  generalize val_main_v18 (F := Ideal) x0 x2 x3 = hn
  have eL1 : ∀ k : Fin 128, lidx_main_v19 (ix2 r q) k = ix2 r k := fun k => funext fun a => Fin.ext (by
    match a with | ⟨0, _⟩ => rfl | ⟨1, _⟩ => rfl)
  have eR1 : ∀ k : Fin 128, ridx_main_v19 (ix2 r q) k = ix2 k q := fun k => funext fun a => Fin.ext (by
    match a with | ⟨0, _⟩ => rfl | ⟨1, _⟩ => rfl)
  have eL2 : ∀ k : Fin 128, lidx_main_v20 (ix2 r q) k = ix2 r k := fun k => funext fun a => Fin.ext (by
    match a with | ⟨0, _⟩ => rfl | ⟨1, _⟩ => rfl)
  have eR2 : ∀ k : Fin 128, ridx_main_v20 (ix2 r q) k = ix2 k q := fun k => funext fun a => Fin.ext (by
    match a with | ⟨0, _⟩ => rfl | ⟨1, _⟩ => rfl)
  have eB : idx_main_v22 (idx_main_v23 (ix2 r q)) = ix1 q := funext fun a => Fin.ext (by
    match a with | ⟨0, _⟩ => rfl)
  simp only [eL1, eR1, eL2, eR2, eB, Ideal.maximumf_def, Ideal.addf_def, Ideal.ofBits_def, Ideal.ofBits_zero_f32]
  rfl

/-- The endpoint result stage is the update of the endpoint arrays. -/
theorem endpoint (x0 : (⟨S50000x128, .f32⟩ : BufTy).Contents (Elt Ideal)) (x1 : (⟨S100000x128, .f32⟩ : BufTy).Contents (Elt Ideal)) (x4 x5 : (⟨S600000, .i32⟩ : BufTy).Contents (Elt Ideal)) (x9 x10 : (⟨S128x128, .f32⟩ : BufTy).Contents (Elt Ideal)) (x11 : (⟨S128, .f32⟩ : BufTy).Contents (Elt Ideal)) :
    val_main_v50 (F := Ideal) x0 x1 x4 x5 x9 x10 x11 = update (N := 50000) x0 (val_main_v43 (F := Ideal) x1 x4 x5) x9 x10 x11 := by
  funext i
  obtain ⟨r, q, rfl⟩ : ∃ (r : Fin 50000) (q : Fin 128), i = ix2 r q := ⟨i 0, i 1, eq_ix2 i⟩
  rw [update_ix2, val_main_v50_apply, val_main_v49_apply, val_main_v46_apply, val_main_v44_apply, val_main_v45_apply, val_main_v48_apply, val_main_v47_apply, val_main_call0_v0_apply, val_main_call0_cst_apply]
  generalize val_main_v43 (F := Ideal) x1 x4 x5 = hn
  have eL1 : ∀ k : Fin 128, lidx_main_v44 (ix2 r q) k = ix2 r k := fun k => funext fun a => Fin.ext (by
    match a with | ⟨0, _⟩ => rfl | ⟨1, _⟩ => rfl)
  have eR1 : ∀ k : Fin 128, ridx_main_v44 (ix2 r q) k = ix2 k q := fun k => funext fun a => Fin.ext (by
    match a with | ⟨0, _⟩ => rfl | ⟨1, _⟩ => rfl)
  have eL2 : ∀ k : Fin 128, lidx_main_v45 (ix2 r q) k = ix2 r k := fun k => funext fun a => Fin.ext (by
    match a with | ⟨0, _⟩ => rfl | ⟨1, _⟩ => rfl)
  have eR2 : ∀ k : Fin 128, ridx_main_v45 (ix2 r q) k = ix2 k q := fun k => funext fun a => Fin.ext (by
    match a with | ⟨0, _⟩ => rfl | ⟨1, _⟩ => rfl)
  have eB : idx_main_v47 (idx_main_v48 (ix2 r q)) = ix1 q := funext fun a => Fin.ext (by
    match a with | ⟨0, _⟩ => rfl)
  simp only [eL1, eR1, eL2, eR2, eB, Ideal.maximumf_def, Ideal.addf_def, Ideal.ofBits_def, Ideal.ofBits_zero_f32]
  rfl

end Cert.ReferenceIdeal.RefValue

end
-- ==== Proof.lean ====
/-
  Two programs compute one layer of a two-type graph network: for the flow nodes and for the endpoint nodes,
  `relu(x · W_self + mean_of_neighbours · W_neigh + b)`, the mean of a node's neighbours taken over the edges that end at it.

  Both programs compute the two neighbour means with the same host operations (a gather of the source rows along the
  edges, a scatter-add into the destination nodes, a division by the clamped in-degree). They differ in the rest: the
  reference takes the two whole matrix products, the bias and the rectifier as array operations on the host; the kernel
  takes them a block of 5000 rows at a time, in two launched regions, with the matrix unit.

  On the extended reals the difference disappears. An entry of the result depends on one row of the features and of the
  mean, one column of each weight matrix and one bias entry (`Cert.Sage.cell`), and a block of rows holds every row its
  entries need: so each region leaves exactly `Cert.Sage.update` of its five arrays (Proof/Block.lean for the stored
  block, Proof/Flow.lean and Proof/Endpoint.lean for the two regions, Proof/KernelRun.lean and Proof/KernelValue.lean for
  the run), and the reference's result stages are the same `update` (Proof/RefValue.lean). No law beyond reading sums
  index by index is used, so nothing is asked of the inputs: the precondition is never opened.

  The three frames are the generated ones (the reference's is its run with the results dropped), and the idealization
  rewrote nothing, so `preserves` is `True`.
-/
import proofs.«151325_j85152021611239_1_alg».proof.Defs
import proofs.«151325_j85152021611239_1_alg».proof.Proof.Gen.Kernel
import proofs.«151325_j85152021611239_1_alg».proof.Proof.Gen.Kernel.Skeleton
import proofs.«151325_j85152021611239_1_alg».proof.Proof.Gen.Kernel.Launch
import proofs.«151325_j85152021611239_1_alg».proof.Proof.Gen.Kernel.Points
import proofs.«151325_j85152021611239_1_alg».proof.Proof.Gen.Kernel.Frame
import proofs.«151325_j85152021611239_1_alg».proof.Proof.Gen.KernelIdeal
import proofs.«151325_j85152021611239_1_alg».proof.Proof.Gen.KernelIdeal.Skeleton
import proofs.«151325_j85152021611239_1_alg».proof.Proof.Gen.KernelIdeal.Launch
import proofs.«151325_j85152021611239_1_alg».proof.Proof.Gen.KernelIdeal.Points
import proofs.«151325_j85152021611239_1_alg».proof.Proof.Gen.KernelIdeal.Frame
import proofs.«151325_j85152021611239_1_alg».proof.Proof.Gen.ReferenceIdeal
import proofs.«151325_j85152021611239_1_alg».proof.Proof.Gen.Pre_finite_inputs
import proofs.«151325_j85152021611239_1_alg».proof.Proof.Gen.ReferenceIdeal.Run
import proofs.«151325_j85152021611239_1_alg».proof.Proof.Gen.ReferenceIdeal.Read
import proofs.«151325_j85152021611239_1_alg».proof.Proof.KernelValue
import proofs.«151325_j85152021611239_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the idealized reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the twelve arguments the idealized kernel and the idealized reference both run, and end
    with the same two result arrays: each is `Cert.Sage.update` of the arguments' arrays and of the neighbour mean the
    shared host operations compute from them. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v50_eq, Cert.ReferenceIdeal.RefValue.endpoint, a0, a1, a4, a5, a9, a10, a11]
  · obtain ⟨a0, a1, a2, a3, a4, a5, a6, a7, a8, a9, a10, a11⟩ := hagree c
    rw [Cert.ReferenceIdeal.Read.val_main_v51_eq, Cert.ReferenceIdeal.RefValue.flow, a0, a1, a2, a3, a6, a7, a8]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
